-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192x2048 .f32) (main_arg5 : FVec F S8192 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S256x2048 : Shape := ⟨2, ![256, 2048]⟩
abbrev S256x512 : Shape := ⟨2, ![256, 512]⟩
abbrev S4x512x2048 : Shape := ⟨3, ![4, 512, 2048]⟩
abbrev S4x512 : Shape := ⟨2, ![4, 512]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 15
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S8192x2048, .bf16⟩
  | .hbm, ⟨8, _⟩ => ⟨S4x2048x2048, .bf16⟩
  | .hbm, ⟨9, _⟩ => ⟨S8192x2048, .bf16⟩
  | .hbm, ⟨10, _⟩ => ⟨S4x2048x2048, .bf16⟩
  | .hbm, ⟨11, _⟩ => ⟨S8192, .f32⟩
  | .hbm, ⟨12, _⟩ => ⟨S4x2048, .f32⟩
  | .hbm, ⟨13, _⟩ => ⟨S4096x2048, .f32⟩
  | .hbm, ⟨14, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x512, .f32⟩
  | .local _ .vmem, ⟨5, _⟩ => ⟨S256x512, .f32⟩
  | .local _ .vmem, ⟨6, _⟩ => ⟨S4x512x2048, .bf16⟩
  | .local _ .vmem, ⟨7, _⟩ => ⟨S4x512x2048, .bf16⟩
  | .local _ .vmem, ⟨8, _⟩ => ⟨S4x512x2048, .bf16⟩
  | .local _ .vmem, ⟨9, _⟩ => ⟨S4x512x2048, .bf16⟩
  | .local _ .vmem, ⟨10, _⟩ => ⟨S4x512, .f32⟩
  | .local _ .vmem, ⟨11, _⟩ => ⟨S4x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S256x2048_S256x2048_0_0 : ∀ a, (![0, 0] : Fin 2 → Nat) a + S256x2048.size a ≤ S256x2048.size a
  h_S256x2048 : 0 < S256x2048.numel
  inb_S4x512x2048_S4x512x2048_0_0_0 : ∀ a, (![0, 0, 0] : Fin 3 → Nat) a + S4x512x2048.size a ≤ S4x512x2048.size a
  h_S4x512x2048 : 0 < S4x512x2048.numel
  shapeCasts_S4x512x2048_S4x512x2048 : S4x512x2048.ShapeCasts S4x512x2048
  shapeCasts_S4x512x2048_S2048x2048 : S4x512x2048.ShapeCasts S2048x2048
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S4x512_S2048 : S4x512.ShapeCasts S2048
  shapeCasts_S2048_S1x2048 : S2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S256x512_S256x512_0_0 : ∀ a, (![0, 0] : Fin 2 → Nat) a + S256x512.size a ≤ S256x512.size a
  h_S256x512 : 0 < S256x512.numel
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x2048.size a
  hwx0_2 : ∀ i : grid0.Coords, EltTy.bits .f32 = 32 ∨ (Rect.block (s := S4096x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x2048.size a ≤ S4x2048x2048.size a
  hwx0_3 : ∀ i : grid0.Coords, EltTy.bits .bf16 = 32 ∨ (Rect.block (s := S4x2048x2048) S4x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x2048.size a ≤ S4x2048x2048.size a
  hwx0_4 : ∀ i : grid0.Coords, EltTy.bits .bf16 = 32 ∨ (Rect.block (s := S4x2048x2048) S4x512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x2048.size a
  hwx0_5 : ∀ i : grid0.Coords, EltTy.bits .f32 = 32 ∨ (Rect.block (s := S4x2048) S4x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S4096x2048.size a
  hwx0_6 : ∀ i : grid0.Coords, EltTy.bits .f32 = 32 ∨ (Rect.block (s := S4096x2048) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S4096x2048.size a
  hwx0_7 : ∀ i : grid0.Coords, EltTy.bits .f32 = 32 ∨ (Rect.block (s := S4096x2048) S256x512.size (cc0_transform_7 i) (hinb0_7 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S2048x8192, .f32⟩
  | .hbm, ⟨10, _⟩ => ⟨S4096x8192, .f32⟩
  | .hbm, ⟨11, _⟩ => ⟨S4096x8192, .f32⟩
  | .hbm, ⟨12, _⟩ => ⟨S8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  The specification: one step of an LSTM cell as a function of its seven argument arrays, index by index, on the
  extended reals.

  For batch row `b` and stacked-gate column `j` (the four gates' 2048 columns laid side by side: input, forget,
  candidate, output), the pre-activation is

      pre b j = (Σₖ x[b,k] · w_ih[j,k] + Σₖ hx[b,k] · w_hh[j,k]) + (b_ih[j] + b_hh[j]),

  both sums over the 2048 features, grouped exactly so. With σ the logistic function, the new cell state and hidden
  state at hidden unit `h` are

      cy[b,h] = σ(pre b (2048+h)) · cx[b,h] + σ(pre b h) · tanh(pre b (4096+h)),
      hy[b,h] = σ(pre b (6144+h)) · tanh(cy[b,h]).

  Nothing here needs the entries to be finite: the two programs are compared as the same tree of sums, products and
  the functions σ and tanh of the same extended reals.
-/
import Idealize.ShloMosaic.PureOps.Ideal
import Idealize.ShloMosaic.Lib.ValueIdx

noncomputable section

namespace Cert.Cell

open Idealize.ShloMosaic Idealize.ShloMosaic.ValueIdx

/-- A [4096, 2048] array: the input `x`, the hidden state `hx`, the cell state `cx`, and both results. -/
abbrev Act : Type := (⟨2, ![4096, 2048]⟩ : Shape).Idx → EReal
/-- A stacked weight matrix [8192, 2048]: row `j` holds the weights of stacked-gate column `j`. -/
abbrev Wt : Type := (⟨2, ![8192, 2048]⟩ : Shape).Idx → EReal
/-- A stacked bias [8192]. -/
abbrev Bias : Type := (⟨1, ![8192]⟩ : Shape).Idx → EReal

/-- The pre-activation of stacked-gate column `j` for batch row `b`. -/
def pre (x hx : Act) (wih whh : Wt) (bih bhh : Bias) (b : Fin 4096) (j : Fin 8192) : EReal :=
  ((∑ k : Fin 2048, x (ix2 b k) * wih (ix2 j k)) + ∑ k : Fin 2048, hx (ix2 b k) * whh (ix2 j k))
    + (bih (ix1 j) + bhh (ix1 j))

/-- The stacked column of hidden unit `h` in gate `g` (0 input, 1 forget, 2 candidate, 3 output): 2048·g + h. -/
def col (g : Fin 4) (h : Fin 2048) : Fin 8192 := ⟨2048 * g.val + h.val, by have := g.isLt; have := h.isLt; omega⟩

/-- The new cell state. -/
def cell (x hx cx : Act) (wih whh : Wt) (bih bhh : Bias) : Act := fun i =>
  Ideal.logistic (pre x hx wih whh bih bhh (i 0) (col 1 (i 1))) * cx i
    + Ideal.logistic (pre x hx wih whh bih bhh (i 0) (col 0 (i 1))) * Ideal.tanh (pre x hx wih whh bih bhh (i 0) (col 2 (i 1)))

/-- The new hidden state. -/
def hidden (x hx cx : Act) (wih whh : Wt) (bih bhh : Bias) : Act := fun i =>
  Ideal.logistic (pre x hx wih whh bih bhh (i 0) (col 3 (i 1))) * Ideal.tanh (cell x hx cx wih whh bih bhh i)

end Cert.Cell

end
-- ==== Proof.RefCell.lean ====
/-
  The reference computes the specification. Its program forms the whole [4096, 8192] pre-activation array
  (two matrix products against the transposed weights, their sum, plus the summed biases broadcast over the rows),
  cuts it into the four gates' [4096, 2048] column ranges, and applies σ — spelled 1 / (1 + exp(−z)) — and tanh
  pointwise. Read at an index, each stage is the corresponding piece of `Cert.Cell`: the transposes only swap the
  two coordinates of a weight index, a slice adds its column offset, and 1 / (1 + exp(−z)) is the logistic function
  on every extended real, by definition.
-/
import proofs.«135440_j730144441065_2_alg».proof.Proof.Gen.ReferenceIdeal.Read
import proofs.«135440_j730144441065_2_alg».proof.Proof.CellSpec

noncomputable section

namespace Cert.RefCell

open Cert.ReferenceIdeal Cert.ReferenceIdeal.Read Idealize.ShloMosaic Idealize.ShloMosaic.ValueIdx Cert.Cell

/-- The f32 word of 1.0 is the extended real 1. -/
theorem one_f32 : Ideal.ofBits .f32 0x3F800000#32 = 1 := by
  simp [Ideal.ofBits, Ideal.ieee, -EReal.coe_mul]; norm_num

/-- The host's quotient 1 / (1 + exp(−z)), with both ones the f32 word of 1.0, is σ(z). -/
theorem logistic_spelled (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]; rfl

variable (x0 x1 x2 : (⟨S4096x2048, .f32⟩ : BufTy).Contents (Elt Ideal))
  (x3 x4 : (⟨S8192x2048, .f32⟩ : BufTy).Contents (Elt Ideal))
  (x5 x6 : (⟨S8192, .f32⟩ : BufTy).Contents (Elt Ideal))

/-- The reference's [4096, 8192] array of pre-activations, at an index. -/
theorem pre_apply (i : S4096x8192.Idx) :
    val_main_v8 (F := Ideal) x0 x1 x3 x4 x5 x6 i = pre x0 x1 x3 x4 x5 x6 (i 0) (i 1) := by
  have el1 : ∀ k : Fin 2048, lidx_main_v1 i k = ix2 (i 0) k := fun k =>
    funext fun a => match a with | ⟨0, _⟩ => rfl | ⟨1, _⟩ => rfl
  have er1 : ∀ k : Fin 2048, idx_main_v0 (ridx_main_v1 i k) = ix2 (i 1) k := fun k =>
    funext fun a => match a with | ⟨0, _⟩ => rfl | ⟨1, _⟩ => rfl
  have el3 : ∀ k : Fin 2048, lidx_main_v3 i k = ix2 (i 0) k := fun k =>
    funext fun a => match a with | ⟨0, _⟩ => rfl | ⟨1, _⟩ => rfl
  have er3 : ∀ k : Fin 2048, idx_main_v2 (ridx_main_v3 i k) = ix2 (i 1) k := fun k =>
    funext fun a => match a with | ⟨0, _⟩ => rfl | ⟨1, _⟩ => rfl
  have eb : idx_main_v6 (idx_main_v7 i) = ix1 (i 1) :=
    funext fun a => match a with | ⟨0, _⟩ => rfl
  rw [val_main_v8_apply, val_main_v4_apply, val_main_v1_apply, val_main_v3_apply, val_main_v7_apply,
    val_main_v6_apply, val_main_v5_apply]
  simp only [val_main_v0_apply, val_main_v2_apply, el1, er1, el3, er3, eb, Ideal.addf_def]
  rfl

/-- The four gates' column ranges of it: a slice at column offset 2048·g reads column 2048·g + h. -/
theorem in_apply (i : S4096x2048.Idx) :
    val_main_v9 (F := Ideal) x0 x1 x3 x4 x5 x6 i = pre x0 x1 x3 x4 x5 x6 (i 0) (col 0 (i 1)) := by
  rw [val_main_v9_apply, pre_apply]
  exact congrArg (pre x0 x1 x3 x4 x5 x6 (i 0)) (Fin.ext (by show (i 1).val = 2048 * 0 + (i 1).val; omega))
theorem fg_apply (i : S4096x2048.Idx) :
    val_main_v10 (F := Ideal) x0 x1 x3 x4 x5 x6 i = pre x0 x1 x3 x4 x5 x6 (i 0) (col 1 (i 1)) := by
  rw [val_main_v10_apply, pre_apply]
  exact congrArg (pre x0 x1 x3 x4 x5 x6 (i 0)) (Fin.ext (by show 2048 + (i 1).val = 2048 * 1 + (i 1).val; omega))
theorem cd_apply (i : S4096x2048.Idx) :
    val_main_v11 (F := Ideal) x0 x1 x3 x4 x5 x6 i = pre x0 x1 x3 x4 x5 x6 (i 0) (col 2 (i 1)) := by
  rw [val_main_v11_apply, pre_apply]
  exact congrArg (pre x0 x1 x3 x4 x5 x6 (i 0)) (Fin.ext (by show 4096 + (i 1).val = 2048 * 2 + (i 1).val; omega))
theorem ou_apply (i : S4096x2048.Idx) :
    val_main_v12 (F := Ideal) x0 x1 x3 x4 x5 x6 i = pre x0 x1 x3 x4 x5 x6 (i 0) (col 3 (i 1)) := by
  rw [val_main_v12_apply, pre_apply]
  exact congrArg (pre x0 x1 x3 x4 x5 x6 (i 0)) (Fin.ext (by show 6144 + (i 1).val = 2048 * 3 + (i 1).val; omega))

/-- The reference's second result is the new cell state. -/
theorem cell_eq : val_main_v34 (F := Ideal) x0 x1 x2 x3 x4 x5 x6 = cell x0 x1 x2 x3 x4 x5 x6 := by
  funext i
  rw [val_main_v34_apply, val_main_v32_apply, val_main_v33_apply, val_main_v24_apply, val_main_v18_apply,
    val_main_v25_apply, val_main_v23_apply, val_main_v22_apply, val_main_v21_apply, val_main_v20_apply,
    val_main_v19_apply, val_main_v17_apply, val_main_v16_apply, val_main_v15_apply, val_main_v14_apply,
    val_main_v13_apply, val_main_cst_apply, val_main_cst_0_apply, val_main_cst_1_apply, val_main_cst_2_apply,
    in_apply, fg_apply, cd_apply]
  simp only [Ideal.ofBits_def, logistic_spelled]
  rfl

/-- The reference's first result is the new hidden state. -/
theorem hidden_eq : val_main_v36 (F := Ideal) x0 x1 x2 x3 x4 x5 x6 = hidden x0 x1 x2 x3 x4 x5 x6 := by
  funext i
  rw [val_main_v36_apply, val_main_v35_apply, val_main_v31_apply, val_main_v30_apply, val_main_v29_apply,
    val_main_v28_apply, val_main_v27_apply, val_main_v26_apply, val_main_cst_3_apply, val_main_cst_4_apply,
    ou_apply, cell_eq]
  simp only [Ideal.ofBits_def, logistic_spelled]
  rfl

end Cert.RefCell

end
-- ==== Proof.GateTile.lean ====
/-
  The pre-activations one grid point computes, read at an index.

  A grid point holds a [256, 2048] tile of `x` and of `hx` (256 batch rows, all features), a [4, 512, 2048] tile of
  each stacked weight (for each of the four gates, the 512 hidden units of this point's column block, all features)
  and a [4, 512] tile of the summed bias. It flattens the weight tiles to [2048, 2048] and the bias tile to [2048]
  — local column j = 512·g + c is gate g, unit c —, multiplies the activations against the flattened weights
  contracting the feature axis of both (a product with the transposed weight tile), adds the two products and then
  the bias row. So at row r and local column j = 512·g + c:

      gates[r, j] = (Σₖ x[r,k] · w_ih[g,c,k] + Σₖ hx[r,k] · w_hh[g,c,k]) + bias[g,c].

  The narrowing of the activations before the product is the identity on the extended reals, and the product's
  accumulator is the zero array.
-/
import proofs.«135440_j730144441065_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GateTile

open Cert.KernelIdeal Cert.KernelIdeal.Gen Idealize.ShloMosaic Idealize.ShloMosaic.ValueIdx

/-- The product's dimension numbers: [256, 2048] against [2048, 2048], the second axis of both contracted. -/
abbrev D := dot_S256x2048_S2048x2048_S256x2048_1_1_0_0_n_n

theorem lhs_0 (i : S256x2048.Idx) (q : D.contr.Idx) : (D.lhsIdx i q 0).val = (i 0).val := by
  unfold DotDims.lhsIdx
  rw [dif_neg (show ¬(0 : Fin S256x2048.rank) ∈ D.lhsBatch by decide), dif_pos (show (0 : Fin S256x2048.rank) ∈ D.lhsNonContracting by decide)]
  rfl
theorem lhs_1 (i : S256x2048.Idx) (q : D.contr.Idx) : (D.lhsIdx i q 1).val = (q ⟨0, by decide⟩).val :=
  D.lhsIdx_val_of_single rfl i q
theorem rhs_0 (i : S256x2048.Idx) (q : D.contr.Idx) : (D.rhsIdx i q 0).val = (i 1).val := by
  unfold DotDims.rhsIdx
  rw [dif_neg (show ¬(0 : Fin S2048x2048.rank) ∈ D.rhsBatch by decide), dif_pos (show (0 : Fin S2048x2048.rank) ∈ D.rhsNonContracting by decide)]
  rfl
theorem rhs_1 (i : S256x2048.Idx) (q : D.contr.Idx) : (D.rhsIdx i q 1).val = (q ⟨0, by decide⟩).val :=
  D.rhsIdx_val_of_single rfl i q

/-- The product into the zero array, at (r, j): row r of the left operand against ROW j of the right one, summed over
    the 2048 features. -/
theorem prod_apply (A : FVec Ideal S256x2048 .bf16) (W : FVec Ideal S2048x2048 .bf16) (r : Fin 256) (j : Fin 2048) :
    matmul D none A W (constant S256x2048 .f32 0x00000000#32) (ix2 r j) = ∑ k : Fin 2048, A (ix2 r k) * W (ix2 j k) := by
  show FloatOps.matmul D none A W (constant S256x2048 .f32 0x00000000#32) (ix2 r j) = _
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 r j) ((contrEquiv1 D 2048 rfl rfl).symm k) = ix2 r k := funext fun a => Fin.ext (by
    match a with
    | ⟨0, _⟩ => exact lhs_0 _ _
    | ⟨1, _⟩ => exact (lhs_1 _ _).trans hk)
  have er : D.rhsIdx (ix2 r j) ((contrEquiv1 D 2048 rfl rfl).symm k) = ix2 j k := funext fun a => Fin.ext (by
    match a with
    | ⟨0, _⟩ => exact rhs_0 _ _
    | ⟨1, _⟩ => exact (rhs_1 _ _).trans hk)
  rw [el, er]

/-- Row j = 512·g + c of the flattened weight tile is row (g, c) of the tile. -/
theorem tile_row (P : Vec Ideal S4x512x2048 .bf16) (g : Fin 4) (cc : Fin 512) (j : Fin 2048)
    (hj : j.val = 512 * g.val + cc.val) (k : Fin 2048) :
    shapeCast S2048x2048 (shapeCast S4x512x2048 P Facts₀.shapeCasts_S4x512x2048_S4x512x2048) Facts₀.shapeCasts_S4x512x2048_S2048x2048 (ix2 j k)
      = P (ix3 g cc k) := by
  rw [shapeCast_self]
  exact shapeCast_apply P _ (ix2 j k) (ix3 g cc k) (by
    rw [Shape.rowMajor_val_three, Shape.rowMajor_val_two]
    show (g.val * 512 + cc.val) * 2048 + k.val = j.val * 2048 + k.val
    omega)

/-- The bias tile flattened, given a unit leading axis and repeated down the 256 rows: at (r, 512·g + c) it is the
    tile's entry (g, c). -/
theorem bias_row (P : Vec Ideal S4x512 .f32) (g : Fin 4) (cc : Fin 512) (j : Fin 2048)
    (hj : j.val = 512 * g.val + cc.val) (r : Fin 256) :
    broadcastTo S256x2048 (shapeCast S1x2048 (shapeCast S2048 (shapeCast S4x512 P Facts₀.shapeCasts_S4x512_S4x512) Facts₀.shapeCasts_S4x512_S2048) Facts₀.shapeCasts_S2048_S1x2048) Facts₀.broadcasts_S1x2048_S256x2048 (ix2 r j)
      = P (ix2 g cc) := by
  rw [shapeCast_self, broadcastTo_1b_ab_apply, shapeCast_a_1a_apply]
  exact shapeCast_apply P _ (ix1 j) (ix2 g cc) (by
    rw [Shape.rowMajor_val_two, Shape.rowMajor_val_one]
    show g.val * 512 + cc.val = j.val
    omega)

/-- The pre-activation tile at row r and local column j = 512·g + c. -/
theorem gates_apply (P0 P1 : Vec Ideal S256x2048 .f32) (P2 P3 : Vec Ideal S4x512x2048 .bf16) (P4 : Vec Ideal S4x512 .f32)
    (r : Fin 256) (g : Fin 4) (cc : Fin 512) (j : Fin 2048) (hj : j.val = 512 * g.val + cc.val) :
    k0_pay1 (F := Ideal) P0 P1 P2 P3 P4 (ix2 r j)
      = ((∑ k : Fin 2048, P0 (ix2 r k) * P2 (ix3 g cc k)) + ∑ k : Fin 2048, P1 (ix2 r k) * P3 (ix3 g cc k)) + P4 (ix2 g cc) := by
  have h : k0_pay1 (F := Ideal) P0 P1 P2 P3 P4
      = addf (addf
          (matmul D none (truncf .bf16 P0 Facts₀.bitsLt_bf16_f32)
            (shapeCast S2048x2048 (shapeCast S4x512x2048 P2 Facts₀.shapeCasts_S4x512x2048_S4x512x2048) Facts₀.shapeCasts_S4x512x2048_S2048x2048)
            (constant S256x2048 .f32 0x00000000#32))
          (matmul D none (truncf .bf16 P1 Facts₀.bitsLt_bf16_f32)
            (shapeCast S2048x2048 (shapeCast S4x512x2048 P3 Facts₀.shapeCasts_S4x512x2048_S4x512x2048) Facts₀.shapeCasts_S4x512x2048_S2048x2048)
            (constant S256x2048 .f32 0x00000000#32)))
        (broadcastTo S256x2048 (shapeCast S1x2048 (shapeCast S2048 (shapeCast S4x512 P4 Facts₀.shapeCasts_S4x512_S4x512) Facts₀.shapeCasts_S4x512_S2048) Facts₀.shapeCasts_S2048_S1x2048) Facts₀.broadcasts_S1x2048_S256x2048) := rfl
  rw [h, addf_apply, addf_apply, prod_apply, prod_apply, bias_row P4 g cc j hj r]
  simp only [tile_row P2 g cc j hj, tile_row P3 g cc j hj, truncf_apply]

end Cert.GateTile

end
-- ==== Proof.TileValue.lean ====
/-
  One grid point's two result tiles as functions of its six input tiles, index by index.

  With the point's pre-activation tile (Proof/GateTile.lean) the body cuts four [256, 512] column ranges out of
  it — local columns c, 512 + c, 1024 + c, 1536 + c: the input gate, the forget gate, the candidate and the output
  gate of unit c — and stores

      cell[r,c]   = σ(forget) · cx[r,c] + σ(input) · tanh(candidate),
      hidden[r,c] = σ(output) · tanh(cell[r,c]).
-/
import proofs.«135440_j730144441065_2_alg».proof.Proof.Gen.KernelIdeal.Value
import proofs.«135440_j730144441065_2_alg».proof.Proof.GateTile

noncomputable section

namespace Cert.TileValue

open Cert.KernelIdeal Cert.KernelIdeal.Gen Idealize.ShloMosaic Idealize.ShloMosaic.ValueIdx Cert.GateTile

/-- The pre-activation of gate g, unit c, for row r of the tile: from the tiles of x, hx, the two weights, the bias. -/
def tilePre (a0 a1 : Vec Ideal S256x2048 .f32) (a3 a4 : Vec Ideal S4x512x2048 .bf16) (a5 : Vec Ideal S4x512 .f32)
    (r : Fin 256) (g : Fin 4) (cc : Fin 512) : EReal :=
  ((∑ k : Fin 2048, a0 (ix2 r k) * a3 (ix3 g cc k)) + ∑ k : Fin 2048, a1 (ix2 r k) * a4 (ix3 g cc k)) + a5 (ix2 g cc)

/-- The new cell state on the tile (a2 is the tile of cx). -/
def tileCell (a0 a1 : Vec Ideal S256x2048 .f32) (a2 : Vec Ideal S256x512 .f32) (a3 a4 : Vec Ideal S4x512x2048 .bf16)
    (a5 : Vec Ideal S4x512 .f32) (r : Fin 256) (cc : Fin 512) : EReal :=
  Ideal.logistic (tilePre a0 a1 a3 a4 a5 r 1 cc) * a2 (ix2 r cc)
    + Ideal.logistic (tilePre a0 a1 a3 a4 a5 r 0 cc) * Ideal.tanh (tilePre a0 a1 a3 a4 a5 r 2 cc)

/-- The new hidden state on the tile. -/
def tileHidden (a0 a1 : Vec Ideal S256x2048 .f32) (a2 : Vec Ideal S256x512 .f32) (a3 a4 : Vec Ideal S4x512x2048 .bf16)
    (a5 : Vec Ideal S4x512 .f32) (r : Fin 256) (cc : Fin 512) : EReal :=
  Ideal.logistic (tilePre a0 a1 a3 a4 a5 r 3 cc) * Ideal.tanh (tileCell a0 a1 a2 a3 a4 a5 r cc)

variable (a0 a1 : Vec Ideal S256x2048 .f32) (a2 : Vec Ideal S256x512 .f32) (a3 a4 : Vec Ideal S4x512x2048 .bf16)
  (a5 : Vec Ideal S4x512 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- Local column 512·g + c of the pre-activation tile, for each of the four gates. -/
theorem gate0 (r : Fin 256) (cc : Fin 512) :
    k0_pay1 (F := Ideal) a0 a1 a3 a4 a5 (ix2 r (⟨cc.val, by have := cc.isLt; omega⟩ : Fin 2048)) = tilePre a0 a1 a3 a4 a5 r 0 cc :=
  gates_apply a0 a1 a3 a4 a5 r 0 cc _ (by show cc.val = 512 * 0 + cc.val; omega)
theorem gate1 (r : Fin 256) (cc : Fin 512) :
    k0_pay1 (F := Ideal) a0 a1 a3 a4 a5 (ix2 r (⟨cc.val + 512, by have := cc.isLt; omega⟩ : Fin 2048)) = tilePre a0 a1 a3 a4 a5 r 1 cc :=
  gates_apply a0 a1 a3 a4 a5 r 1 cc _ (by show cc.val + 512 = 512 * 1 + cc.val; omega)
theorem gate2 (r : Fin 256) (cc : Fin 512) :
    k0_pay1 (F := Ideal) a0 a1 a3 a4 a5 (ix2 r (⟨cc.val + 1024, by have := cc.isLt; omega⟩ : Fin 2048)) = tilePre a0 a1 a3 a4 a5 r 2 cc :=
  gates_apply a0 a1 a3 a4 a5 r 2 cc _ (by show cc.val + 1024 = 512 * 2 + cc.val; omega)
theorem gate3 (r : Fin 256) (cc : Fin 512) :
    k0_pay1 (F := Ideal) a0 a1 a3 a4 a5 (ix2 r (⟨cc.val + 1536, by have := cc.isLt; omega⟩ : Fin 2048)) = tilePre a0 a1 a3 a4 a5 r 3 cc :=
  gates_apply a0 a1 a3 a4 a5 r 3 cc _ (by show cc.val + 1536 = 512 * 3 + cc.val; omega)

/-- The stored cell-state block, at (r, c). -/
theorem cell_block (r : Fin 256) (cc : Fin 512) :
    Value.E7 (F := Ideal) a0 a1 a3 a4 a5 a2 (ix2 r cc) = tileCell a0 a1 a2 a3 a4 a5 r cc := by
  have e0 : Value.ix7_0 (ix2 r cc) = ix2 r (⟨cc.val + 512, by have := cc.isLt; omega⟩ : Fin 2048) :=
    funext fun a => match a with | ⟨0, _⟩ => rfl | ⟨1, _⟩ => rfl
  have e1 : Value.ix7_1 (ix2 r cc) = ix2 r cc :=
    funext fun a => match a with | ⟨0, _⟩ => rfl | ⟨1, _⟩ => rfl
  have e2 : Value.ix7_2 (ix2 r cc) = ix2 r (⟨cc.val, by have := cc.isLt; omega⟩ : Fin 2048) :=
    funext fun a => match a with | ⟨0, _⟩ => rfl | ⟨1, _⟩ => rfl
  have e3 : Value.ix7_3 (ix2 r cc) = ix2 r (⟨cc.val + 1024, by have := cc.isLt; omega⟩ : Fin 2048) :=
    funext fun a => match a with | ⟨0, _⟩ => rfl | ⟨1, _⟩ => rfl
  unfold Value.E7 tileCell
  rw [e0, e1, e2, e3, gate0, gate1, gate2]
  rfl

/-- The stored hidden-state block, at (r, c). -/
theorem hidden_block (r : Fin 256) (cc : Fin 512) :
    Value.E6 (F := Ideal) a0 a1 a3 a4 a5 a2 (ix2 r cc) = tileHidden a0 a1 a2 a3 a4 a5 r cc := by
  have e0 : Value.ix6_0 (ix2 r cc) = ix2 r (⟨cc.val + 1536, by have := cc.isLt; omega⟩ : Fin 2048) :=
    funext fun a => match a with | ⟨0, _⟩ => rfl | ⟨1, _⟩ => rfl
  have e1 : Value.ix6_1 (ix2 r cc) = ix2 r (⟨cc.val + 512, by have := cc.isLt; omega⟩ : Fin 2048) :=
    funext fun a => match a with | ⟨0, _⟩ => rfl | ⟨1, _⟩ => rfl
  have e2 : Value.ix6_2 (ix2 r cc) = ix2 r cc :=
    funext fun a => match a with | ⟨0, _⟩ => rfl | ⟨1, _⟩ => rfl
  have e3 : Value.ix6_3 (ix2 r cc) = ix2 r (⟨cc.val, by have := cc.isLt; omega⟩ : Fin 2048) :=
    funext fun a => match a with | ⟨0, _⟩ => rfl | ⟨1, _⟩ => rfl
  have e4 : Value.ix6_4 (ix2 r cc) = ix2 r (⟨cc.val + 1024, by have := cc.isLt; omega⟩ : Fin 2048) :=
    funext fun a => match a with | ⟨0, _⟩ => rfl | ⟨1, _⟩ => rfl
  unfold Value.E6 tileHidden tileCell
  rw [e0, e1, e2, e3, e4, gate0, gate1, gate2, gate3]
  rfl

/-- What the body leaves in the cell-state window's buffer, from the six input tiles. -/
theorem cell_out (r : Fin 256) (cc : Fin 512) :
    out0_7 (F := Ideal) a0 a1 a2 a3 a4 a5 (ix2 r cc) = tileCell a0 a1 a2 a3 a4 a5 r cc := by
  unfold out0_7
  rw [Value.canon7_eq]
  simp only [View.ld_unit_zero (S := S256x2048) hz2, View.ld_unit_zero (S := S4x512x2048) hz3,
    View.ld_unit_zero (S := S4x512) hz2, View.ld_unit_zero (S := S256x512) hz2]
  exact cell_block a0 a1 a2 a3 a4 a5 r cc

/-- What the body leaves in the hidden-state window's buffer. -/
theorem hidden_out (r : Fin 256) (cc : Fin 512) :
    out0_6 (F := Ideal) a0 a1 a2 a3 a4 a5 (ix2 r cc) = tileHidden a0 a1 a2 a3 a4 a5 r cc := by
  unfold out0_6
  rw [Value.canon6_eq]
  simp only [View.ld_unit_zero (S := S256x2048) hz2, View.ld_unit_zero (S := S4x512x2048) hz3,
    View.ld_unit_zero (S := S4x512) hz2, View.ld_unit_zero (S := S256x512) hz2]
  exact hidden_block a0 a1 a2 a3 a4 a5 r cc

end Cert.TileValue

end
-- ==== Proof.StackedOperands.lean ====
/-
  What the host prepares before the grid runs. The two stacked weight matrices [8192, 2048] are regrouped as
  [4, 2048, 2048] — gate g, hidden unit h, feature k is row 2048·g + h of the matrix — after a narrowing that is the
  identity on the extended reals; the two biases are added and regrouped as [4, 2048] the same way.
-/
import proofs.«135440_j730144441065_2_alg».proof.Proof.Gen.KernelIdeal.Frame
import proofs.«135440_j730144441065_2_alg».proof.Proof.CellSpec
import Idealize.ShloMosaic.Lib.ValueIdx
import Idealize.ShloMosaic.Lib.Pipeline.Value
import Idealize.ShloMosaic.Lib.StableHlo.Run

noncomputable section

namespace Cert.Stacked

open Cert.KernelIdeal Cert.KernelIdeal.Gen Idealize.ShloMosaic Idealize.ShloMosaic.TcCoe Idealize.ShloMosaic.ValueIdx
  Idealize.SL.Sem Idealize.ShloMosaic.StableHlo Cert.Cell

variable (m : (ℓ : Loc nD τ sig) → Buf (Elt Ideal) ℓ)

/-- The seven argument arrays as launched on core `c`, as arrays of extended reals. -/
abbrev argX (c : Dev nD) : Act := m ((c : Thread nD τ).loc main_arg0)
abbrev argHx (c : Dev nD) : Act := m ((c : Thread nD τ).loc main_arg1)
abbrev argCx (c : Dev nD) : Act := m ((c : Thread nD τ).loc main_arg2)
abbrev argWih (c : Dev nD) : Wt := m ((c : Thread nD τ).loc main_arg3)
abbrev argWhh (c : Dev nD) : Wt := m ((c : Thread nD τ).loc main_arg4)
abbrev argBih (c : Dev nD) : Bias := m ((c : Thread nD τ).loc main_arg5)
abbrev argBhh (c : Dev nD) : Bias := m ((c : Thread nD τ).loc main_arg6)

/-- The regrouped input-to-hidden weights as the grid finds them. -/
theorem wih_eq (c : Dev nD) :
    @Eq (S4x2048x2048.Idx → EReal) (V m c main_v1)
      (shapeCast S4x2048x2048 (truncf (F := Ideal) .bf16 (m ((c : Thread nD τ).loc main_arg3) : FVec Ideal S8192x2048 .f32) Facts₀.bitsLt_bf16_f32) Facts₀.shapeCasts_S8192x2048_S4x2048x2048) := by
  dsimp only [Gen.V, Gen.hostOps0]; after_results; rfl

/-- The regrouped hidden-to-hidden weights. -/
theorem whh_eq (c : Dev nD) :
    @Eq (S4x2048x2048.Idx → EReal) (V m c main_v3)
      (shapeCast S4x2048x2048 (truncf (F := Ideal) .bf16 (m ((c : Thread nD τ).loc main_arg4) : FVec Ideal S8192x2048 .f32) Facts₀.bitsLt_bf16_f32) Facts₀.shapeCasts_S8192x2048_S4x2048x2048) := by
  dsimp only [Gen.V, Gen.hostOps0]; after_results; rfl

/-- The summed, regrouped bias. -/
theorem bias_eq (c : Dev nD) :
    @Eq (S4x2048.Idx → EReal) (V m c main_v5)
      (shapeCast S4x2048 (addf (F := Ideal) (s := S8192) (φ := .f32) (argBih m c) (argBhh m c)) Facts₀.shapeCasts_S8192_S4x2048) := by
  dsimp only [Gen.V, Gen.hostOps0]; after_results; rfl

/-- Entry (g, h, k) of the regrouped input-to-hidden weights is entry (2048·g + h, k) of the argument. -/
theorem wih_apply (c : Dev nD) (g : Fin 4) (h : Fin 2048) (k : Fin 2048) :
    (V m c main_v1 : S4x2048x2048.Idx → EReal) (ix3 g h k) = argWih m c (ix2 (col g h) k) := by
  rw [wih_eq]
  exact shapeCast_apply _ _ (ix3 g h k) (ix2 (col g h) k) (by
    rw [Shape.rowMajor_val_three, Shape.rowMajor_val_two]
    show (2048 * g.val + h.val) * 2048 + k.val = (g.val * 2048 + h.val) * 2048 + k.val
    omega)

theorem whh_apply (c : Dev nD) (g : Fin 4) (h : Fin 2048) (k : Fin 2048) :
    (V m c main_v3 : S4x2048x2048.Idx → EReal) (ix3 g h k) = argWhh m c (ix2 (col g h) k) := by
  rw [whh_eq]
  exact shapeCast_apply _ _ (ix3 g h k) (ix2 (col g h) k) (by
    rw [Shape.rowMajor_val_three, Shape.rowMajor_val_two]
    show (2048 * g.val + h.val) * 2048 + k.val = (g.val * 2048 + h.val) * 2048 + k.val
    omega)

/-- Entry (g, h) of the regrouped bias is the sum of the two biases' entries 2048·g + h. -/
theorem bias_apply (c : Dev nD) (g : Fin 4) (h : Fin 2048) :
    (V m c main_v5 : S4x2048.Idx → EReal) (ix2 g h) = argBih m c (ix1 (col g h)) + argBhh m c (ix1 (col g h)) := by
  rw [bias_eq]
  exact shapeCast_apply _ _ (ix2 g h) (ix1 (col g h)) (by
    rw [Shape.rowMajor_val_two, Shape.rowMajor_val_one]
    show 2048 * g.val + h.val = g.val * 2048 + h.val
    omega)

end Cert.Stacked

end
-- ==== Proof.CellBlocks.lean ====
/-
  From tiles to arrays. The grid has 4 × 16 points; point (q, p) works on batch rows 256·p … 256·p + 255 and hidden
  units 512·q … 512·q + 511. Its tile of x and hx is that row block (all features), its tile of cx the [256, 512]
  block (p, q), its weight tiles the rows (g, 512·q + c) of the regrouped weights for the four gates g, its bias tile
  the entries (g, 512·q + c); it writes block (p, q) of both results. Reading every tile where it sits in its array
  turns the tile's pre-activation of (r, g, c) into the specification's pre-activation of batch row 256·p + r and
  stacked column 2048·g + 512·q + c, so what the point writes back is its block of the specification's arrays; the 64
  blocks tile the [4096, 2048] results, so after the run both result arrays ARE the specification's.
-/
import proofs.«135440_j730144441065_2_alg».proof.Proof.TileValue
import proofs.«135440_j730144441065_2_alg».proof.Proof.StackedOperands

noncomputable section

namespace Cert.CellBlocks

open Cert.KernelIdeal Cert.KernelIdeal.Gen Idealize.ShloMosaic Idealize.ShloMosaic.TcCoe Idealize.ShloMosaic.ValueIdx
  Idealize.SL.Sem Cert.Cell Cert.Stacked Cert.TileValue
open Idealize.ShloMosaic.Pipeline (Dat)

variable (m : (ℓ : Loc nD τ sig) → Buf (Elt Ideal) ℓ) (ρ : Dev nD → PrngReg)

/-- The printed index maps, decided over the 64 grid points: relative to the hidden-state window's block (p, q), the
    tiles of x and hx are row block p, the tile of cx is block (p, q), the weight and bias tiles are column block q of
    every gate, and the cell-state window moves with the hidden-state one. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = win0_6.index t (1 : Fin 2)
    ∧ win0_3.index t (0 : Fin 3) = 0 ∧ win0_3.index t (1 : Fin 3) = win0_6.index t (1 : Fin 2) ∧ win0_3.index t (2 : Fin 3) = 0
    ∧ win0_4.index t (0 : Fin 3) = 0 ∧ win0_4.index t (1 : Fin 3) = win0_6.index t (1 : Fin 2) ∧ win0_4.index t (2 : Fin 3) = 0
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 15 ∧ win0_6.index t (1 : Fin 2) ≤ 3 :=
  (by decide +kernel : ∀ t : Fin grid0.N, _)

/-- Every block (p, q) of the 16 × 4 is some point's. -/
theorem idx_onto : ∀ (p : Fin 16) (q : Fin 4), ∃ t : Fin cfg0.N, win0_6.index t = ![p.val, q.val] :=
  (by decide +kernel : ∀ (p : Fin 16) (q : Fin 4), ∃ t : Fin grid0.N, win0_6.index t = ![p.val, q.val])

/-! ## Each tile read where it sits in its array -/

section Reads
variable (c : Dev nD) (t : Fin cfg0.N)

theorem x_read (r : Fin 256) (k : Fin 2048) (b : Fin 4096) (hb : b.val = win0_6.index t (0 : Fin 2) * 256 + r.val) :
    (iblk m c 0 t : Vec Ideal S256x2048 .f32) (ix2 r k) = argX m c (ix2 b k) := by
  obtain ⟨e00, e01, -⟩ := idx_facts t
  show V m c main_arg0 (((cfg0.win 0).blk t).view.emb (ix2 r k)) = _
  rw [V_main_arg0]
  refine congrArg (argX m c) ?_
  funext a; apply Fin.ext
  match a with
  | ⟨0, _⟩ => show win0_0.index t (0 : Fin 2) * 256 + 1 * r.val = b.val; omega
  | ⟨1, _⟩ => show win0_0.index t (1 : Fin 2) * 2048 + 1 * k.val = k.val; omega

theorem hx_read (r : Fin 256) (k : Fin 2048) (b : Fin 4096) (hb : b.val = win0_6.index t (0 : Fin 2) * 256 + r.val) :
    (iblk m c 1 t : Vec Ideal S256x2048 .f32) (ix2 r k) = argHx m c (ix2 b k) := by
  obtain ⟨-, -, e10, e11, -⟩ := idx_facts t
  show V m c main_arg1 (((cfg0.win 1).blk t).view.emb (ix2 r k)) = _
  rw [V_main_arg1]
  refine congrArg (argHx m c) ?_
  funext a; apply Fin.ext
  match a with
  | ⟨0, _⟩ => show win0_1.index t (0 : Fin 2) * 256 + 1 * r.val = b.val; omega
  | ⟨1, _⟩ => show win0_1.index t (1 : Fin 2) * 2048 + 1 * k.val = k.val; omega

theorem cx_read (r : Fin 256) (cc : Fin 512) (i : S4096x2048.Idx)
    (h0 : (i 0).val = win0_6.index t (0 : Fin 2) * 256 + r.val) (h1 : (i 1).val = win0_6.index t (1 : Fin 2) * 512 + cc.val) :
    (iblk m c 2 t : Vec Ideal S256x512 .f32) (ix2 r cc) = argCx m c i := by
  obtain ⟨-, -, -, -, e20, e21, -⟩ := idx_facts t
  show V m c main_arg2 (((cfg0.win 2).blk t).view.emb (ix2 r cc)) = _
  rw [V_main_arg2]
  refine congrArg (argCx m c) ?_
  funext a; apply Fin.ext
  match a with
  | ⟨0, _⟩ => show win0_2.index t (0 : Fin 2) * 256 + 1 * r.val = (i 0).val; omega
  | ⟨1, _⟩ => show win0_2.index t (1 : Fin 2) * 512 + 1 * cc.val = (i 1).val; omega

theorem wih_read (g : Fin 4) (cc : Fin 512) (k : Fin 2048) (h : Fin 2048) (hh : h.val = win0_6.index t (1 : Fin 2) * 512 + cc.val) :
    (iblk m c 3 t : Vec Ideal S4x512x2048 .bf16) (ix3 g cc k) = argWih m c (ix2 (col g h) k) := by
  obtain ⟨-, -, -, -, -, -, e30, e31, e32, -⟩ := idx_facts t
  refine Eq.trans ?_ (wih_apply m c g h k)
  show V m c main_v1 (((cfg0.win 3).blk t).view.emb (ix3 g cc k)) = _
  refine congrArg (V m c main_v1 : S4x2048x2048.Idx → EReal) ?_
  funext a; apply Fin.ext
  match a with
  | ⟨0, _⟩ => show win0_3.index t (0 : Fin 3) * 4 + 1 * g.val = g.val; omega
  | ⟨1, _⟩ => show win0_3.index t (1 : Fin 3) * 512 + 1 * cc.val = h.val; omega
  | ⟨2, _⟩ => show win0_3.index t (2 : Fin 3) * 2048 + 1 * k.val = k.val; omega

theorem whh_read (g : Fin 4) (cc : Fin 512) (k : Fin 2048) (h : Fin 2048) (hh : h.val = win0_6.index t (1 : Fin 2) * 512 + cc.val) :
    (iblk m c 4 t : Vec Ideal S4x512x2048 .bf16) (ix3 g cc k) = argWhh m c (ix2 (col g h) k) := by
  obtain ⟨-, -, -, -, -, -, -, -, -, e40, e41, e42, -⟩ := idx_facts t
  refine Eq.trans ?_ (whh_apply m c g h k)
  show V m c main_v3 (((cfg0.win 4).blk t).view.emb (ix3 g cc k)) = _
  refine congrArg (V m c main_v3 : S4x2048x2048.Idx → EReal) ?_
  funext a; apply Fin.ext
  match a with
  | ⟨0, _⟩ => show win0_4.index t (0 : Fin 3) * 4 + 1 * g.val = g.val; omega
  | ⟨1, _⟩ => show win0_4.index t (1 : Fin 3) * 512 + 1 * cc.val = h.val; omega
  | ⟨2, _⟩ => show win0_4.index t (2 : Fin 3) * 2048 + 1 * k.val = k.val; omega

theorem bias_read (g : Fin 4) (cc : Fin 512) (h : Fin 2048) (hh : h.val = win0_6.index t (1 : Fin 2) * 512 + cc.val) :
    (iblk m c 5 t : Vec Ideal S4x512 .f32) (ix2 g cc) = argBih m c (ix1 (col g h)) + argBhh m c (ix1 (col g h)) := by
  obtain ⟨-, -, -, -, -, -, -, -, -, -, -, -, e50, e51, -⟩ := idx_facts t
  refine Eq.trans ?_ (bias_apply m c g h)
  show V m c main_v5 (((cfg0.win 5).blk t).view.emb (ix2 g cc)) = _
  refine congrArg (V m c main_v5 : S4x2048.Idx → EReal) ?_
  funext a; apply Fin.ext
  match a with
  | ⟨0, _⟩ => show win0_5.index t (0 : Fin 2) * 4 + 1 * g.val = g.val; omega
  | ⟨1, _⟩ => show win0_5.index t (1 : Fin 2) * 512 + 1 * cc.val = h.val; omega

/-- The tile's pre-activation of (r, g, c) at point (q, p) is the specification's of batch row 256·p + r and stacked
    column 2048·g + (512·q + c). -/
theorem pre_point (r : Fin 256) (cc : Fin 512) (g : Fin 4) (b : Fin 4096) (h : Fin 2048)
    (hb : b.val = win0_6.index t (0 : Fin 2) * 256 + r.val) (hh : h.val = win0_6.index t (1 : Fin 2) * 512 + cc.val) :
    tilePre (iblk m c 0 t) (iblk m c 1 t) (iblk m c 3 t) (iblk m c 4 t) (iblk m c 5 t) r g cc
      = pre (argX m c) (argHx m c) (argWih m c) (argWhh m c) (argBih m c) (argBhh m c) b (col g h) := by
  unfold tilePre pre
  refine congrArg₂ (· + ·) (congrArg₂ (· + ·) (Finset.sum_congr rfl fun k _ => ?_) (Finset.sum_congr rfl fun k _ => ?_)) ?_
  · exact congrArg₂ (· * ·) (x_read m c t r k b hb) (wih_read m c t g cc k h hh)
  · exact congrArg₂ (· * ·) (hx_read m c t r k b hb) (whh_read m c t g cc k h hh)
  · exact bias_read m c t g cc h hh

end Reads

/-! ## What a point writes back is its block of the specification -/

/-- The specification's two arrays of the launched arguments. -/
abbrev specHidden (c : Dev nD) : Act := hidden (argX m c) (argHx m c) (argCx m c) (argWih m c) (argWhh m c) (argBih m c) (argBhh m c)
abbrev specCell (c : Dev nD) : Act := cell (argX m c) (argHx m c) (argCx m c) (argWih m c) (argWhh m c) (argBih m c) (argBhh m c)

/-- The tile's cell state at (r, c) is the specification's at the array index under it. -/
theorem cell_point (c : Dev nD) (t : Fin cfg0.N) (r : Fin 256) (cc : Fin 512) (i : S4096x2048.Idx)
    (h0 : (i 0).val = win0_6.index t (0 : Fin 2) * 256 + r.val) (h1 : (i 1).val = win0_6.index t (1 : Fin 2) * 512 + cc.val) :
    tileCell (iblk m c 0 t) (iblk m c 1 t) (iblk m c 2 t) (iblk m c 3 t) (iblk m c 4 t) (iblk m c 5 t) r cc = specCell m c i := by
  unfold tileCell
  rw [pre_point m c t r cc 1 (i 0) (i 1) h0 h1, pre_point m c t r cc 0 (i 0) (i 1) h0 h1,
    pre_point m c t r cc 2 (i 0) (i 1) h0 h1, cx_read m c t r cc i h0 h1]
  rfl

theorem hidden_point (c : Dev nD) (t : Fin cfg0.N) (r : Fin 256) (cc : Fin 512) (i : S4096x2048.Idx)
    (h0 : (i 0).val = win0_6.index t (0 : Fin 2) * 256 + r.val) (h1 : (i 1).val = win0_6.index t (1 : Fin 2) * 512 + cc.val) :
    tileHidden (iblk m c 0 t) (iblk m c 1 t) (iblk m c 2 t) (iblk m c 3 t) (iblk m c 4 t) (iblk m c 5 t) r cc = specHidden m c i := by
  unfold tileHidden
  rw [pre_point m c t r cc 3 (i 0) (i 1) h0 h1, cell_point m c t r cc i h0 h1]
  rfl

theorem hidden_flushed (c : Dev nD) (t : Fin cfg0.N) :
    (dats m 0 c).flushed 6 t = ((cfg0.win 6).blk t).view.read (Elt Ideal) (specHidden m c) := by
  rw [Value.flushed6]
  funext j
  obtain ⟨r, cc, rfl⟩ : ∃ (r : Fin 256) (cc : Fin 512), j = ix2 r cc := ⟨j 0, j 1, eq_ix2 j⟩
  show out0_6 (iblk m c 0 t) (iblk m c 1 t) (iblk m c 2 t) (iblk m c 3 t) (iblk m c 4 t) (iblk m c 5 t) (ix2 r cc)
    = specHidden m c (((cfg0.win 6).blk t).view.emb (ix2 r cc))
  refine (hidden_out (iblk m c 0 t) (iblk m c 1 t) (iblk m c 2 t) (iblk m c 3 t) (iblk m c 4 t) (iblk m c 5 t) r cc).trans ?_
  refine hidden_point m c t r cc _ ?_ ?_
  · show win0_6.index t (0 : Fin 2) * 256 + 1 * r.val = win0_6.index t (0 : Fin 2) * 256 + r.val; omega
  · show win0_6.index t (1 : Fin 2) * 512 + 1 * cc.val = win0_6.index t (1 : Fin 2) * 512 + cc.val; omega

theorem cell_flushed (c : Dev nD) (t : Fin cfg0.N) :
    (dats m 0 c).flushed 7 t = ((cfg0.win 7).blk t).view.read (Elt Ideal) (specCell m c) := by
  obtain ⟨-, -, -, -, -, -, -, -, -, -, -, -, -, -, e70, e71, -⟩ := idx_facts t
  rw [Value.flushed7]
  funext j
  obtain ⟨r, cc, rfl⟩ : ∃ (r : Fin 256) (cc : Fin 512), j = ix2 r cc := ⟨j 0, j 1, eq_ix2 j⟩
  show out0_7 (iblk m c 0 t) (iblk m c 1 t) (iblk m c 2 t) (iblk m c 3 t) (iblk m c 4 t) (iblk m c 5 t) (ix2 r cc)
    = specCell m c (((cfg0.win 7).blk t).view.emb (ix2 r cc))
  refine (cell_out (iblk m c 0 t) (iblk m c 1 t) (iblk m c 2 t) (iblk m c 3 t) (iblk m c 4 t) (iblk m c 5 t) r cc).trans ?_
  refine cell_point m c t r cc _ ?_ ?_
  · show win0_7.index t (0 : Fin 2) * 256 + 1 * r.val = win0_6.index t (0 : Fin 2) * 256 + r.val; omega
  · show win0_7.index t (1 : Fin 2) * 512 + 1 * cc.val = win0_6.index t (1 : Fin 2) * 512 + cc.val; omega

/-! ## The 64 blocks tile the results -/

theorem mem_blk6 (t : Fin cfg0.N) (i : S4096x2048.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v6_0).slice (win0_6.rect t)).set ↔ _
  rw [View.set_slice_whole, Rect.mem_set_unit]
  exact Iff.rfl

theorem mem_blk7 (t : Fin cfg0.N) (i : S4096x2048.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v6_1).slice (win0_7.rect t)).set ↔ _
  rw [View.set_slice_whole, Rect.mem_set_unit]
  exact Iff.rfl

/-- Index (b, h) lies in the block of the point whose block index is (b / 256, h / 512). -/
theorem covered6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 256, by omega⟩ ⟨(i 1).val / 512, by omega⟩
  have q0 : win0_6.index t (0 : Fin 2) = (i 0).val / 256 := congrFun ht 0
  have q1 : win0_6.index t (1 : Fin 2) = (i 1).val / 512 := congrFun ht 1
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

theorem covered7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 256, by omega⟩ ⟨(i 1).val / 512, by omega⟩
  have q0 : win0_6.index t (0 : Fin 2) = (i 0).val / 256 := congrFun ht 0
  have q1 : win0_6.index t (1 : Fin 2) = (i 1).val / 512 := congrFun ht 1
  obtain ⟨-, -, -, -, -, -, -, -, -, -, -, -, -, -, e70, e71, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-- After the run the hidden-state array is the specification's, -/
theorem hidden_final (c : Dev nD) : (dats m 0 c).arrAt 6 cfg0.N = specHidden m c :=
  (dats m 0 c).arrAt_eq_of_cover 6 (specHidden m c) (fun t _ => hidden_flushed m c t) covered6

/-- and so is the cell-state array. -/
theorem cell_final (c : Dev nD) : (dats m 0 c).arrAt 7 cfg0.N = specCell m c :=
  (dats m 0 c).arrAt_eq_of_cover 7 (specCell m c) (fun t _ => cell_flushed m c t) covered7

/-- The kernel's run, read: both results at the specification of the launched arguments, the arguments unchanged. -/
theorem run : θ_run defs (onTc (τ := τ) (main (F := Ideal))) ⟨m, fun _ => 0, ρ⟩ fun r => ∀ c : Dev nD,
      r.2.mem ((c : Thread nD τ).loc main_v6_0) = specHidden m c
      ∧ r.2.mem ((c : Thread nD τ).loc main_v6_1) = specCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.CellBlocks

end
-- ==== Proof.lean ====
/-
  One LSTM-cell step on [4096, 2048] activations: a Pallas kernel over a 4 × 16 grid against the plain jnp reference,
  compared on the extended reals.

  Both programs compute, for batch row b and hidden unit h,

      pre b j = (Σₖ x[b,k] · w_ih[j,k] + Σₖ hx[b,k] · w_hh[j,k]) + (b_ih[j] + b_hh[j])      (j a stacked-gate column),
      cy[b,h] = σ(pre b (2048+h)) · cx[b,h] + σ(pre b h) · tanh(pre b (4096+h)),
      hy[b,h] = σ(pre b (6144+h)) · tanh(cy[b,h]),

  and return (hy, cy) (Proof/CellSpec.lean). The reference forms the whole [4096, 8192] pre-activation array with two
  matrix products against the transposed weights and spells σ as 1 / (1 + exp(−z)), which is the logistic function by
  definition (Proof/RefCell.lean). The kernel regroups the weights by gate on the host and lets grid point (q, p)
  compute the [256, 2048] pre-activations of batch rows 256·p … and of hidden units 512·q … of all four gates from its
  tiles — products contracting the feature axis of both operands, the weights narrowed to a format that is the same
  extended real — then the two [256, 512] result blocks (Proof/GateTile.lean, Proof/TileValue.lean); reading each tile
  where it sits in its array (Proof/StackedOperands.lean, Proof/CellBlocks.lean) makes the block the point writes back
  its block of the arrays above, and the 64 blocks tile the results. The two sides are the same tree of sums, products,
  σ and tanh, term for term, so no entry needs to be finite and the precondition is not used.

  The three frames are the generated ones (the reference's is its generated run with the results dropped), and the
  idealization rewrote nothing, so there is nothing to preserve.
-/
import proofs.«135440_j730144441065_2_alg».proof.Defs
import proofs.«135440_j730144441065_2_alg».proof.Proof.Gen.Kernel
import proofs.«135440_j730144441065_2_alg».proof.Proof.Gen.Kernel.Skeleton
import proofs.«135440_j730144441065_2_alg».proof.Proof.Gen.Kernel.Launch
import proofs.«135440_j730144441065_2_alg».proof.Proof.Gen.Kernel.Points
import proofs.«135440_j730144441065_2_alg».proof.Proof.Gen.Kernel.Frame
import proofs.«135440_j730144441065_2_alg».proof.Proof.Gen.KernelIdeal
import proofs.«135440_j730144441065_2_alg».proof.Proof.Gen.KernelIdeal.Skeleton
import proofs.«135440_j730144441065_2_alg».proof.Proof.Gen.KernelIdeal.Launch
import proofs.«135440_j730144441065_2_alg».proof.Proof.Gen.KernelIdeal.Points
import proofs.«135440_j730144441065_2_alg».proof.Proof.Gen.KernelIdeal.Frame
import proofs.«135440_j730144441065_2_alg».proof.Proof.Gen.ReferenceIdeal
import proofs.«135440_j730144441065_2_alg».proof.Proof.Gen.Pre_finite_inputs
import proofs.«135440_j730144441065_2_alg».proof.Proof.Gen.KernelIdeal.Value
import proofs.«135440_j730144441065_2_alg».proof.Proof.Gen.ReferenceIdeal.Run
import proofs.«135440_j730144441065_2_alg».proof.Proof.Gen.ReferenceIdeal.Read
import proofs.«135440_j730144441065_2_alg».proof.Proof.RefCell
import proofs.«135440_j730144441065_2_alg».proof.Proof.CellBlocks
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the seven arguments, the kernel's two result arrays end at the specification's
    hidden and cell states of its arguments, and the reference's two results at the specification's of its own:
    the same arrays. -/
theorem algebraic : Cert.algebraic_KernelIdeal_ReferenceIdeal := by
  intro m ρ m' ρ' _ hagree
  refine ⟨fun c => Cert.CellBlocks.specHidden m c, fun c => Cert.CellBlocks.specCell m c, Cert.CellBlocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.RefCell.hidden_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v34_eq, Cert.RefCell.cell_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
